-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S531441x128 : Shape := ⟨2, ![531441, 128]⟩
abbrev S531441 : Shape := ⟨1, ![531441]⟩
abbrev S_ : Shape := ⟨0, ![]⟩

class Facts : Prop where
  bcast_S_S531441x128 : S_.BroadcastsInDim S531441x128 (![] : Fin 0 → Fin S531441x128.rank)
  reducesTo_S531441x128_S_d0_1 : S531441x128.ReducesTo [0, 1] S_
  h_S_ : 0 < S_.numel
  bcast_S_S531441 : S_.BroadcastsInDim S531441 (![] : Fin 0 → Fin S531441.rank)
  reducesTo_S531441_S_d0 : S531441.ReducesTo [0] S_

variable [Facts]

def fn_part1 {F : FTy → Type} [FloatOps F] (main_v13 : IVec S_ 1) (main_v16 : IVec S531441 1) : IVec S_ 1 :=
  let main_c_5 : IVec S_ 1 := constantI S_ 1 1#1
  let main_v17 : IVec S_ 1 := (fun x v => Host.reduce IntOp.andi x v reducesTo_S531441_S_d0 h_S_) main_v16 main_c_5
  let main_v18 : IVec S_ 1 := andi main_v13 main_v17
  main_v18

def fn {F : FTy → Type} [FloatOps F] (main_arg0 : FVec F S531441x128 .f32) (main_arg1 : FVec F S531441x128 .f32) (main_arg2 : FVec F S531441 .f32) (main_arg3 : FVec F S531441 .f32) : IVec S_ 1 :=
  let main_v0 : FVec F S531441x128 .f32 := Host.absf main_arg0
  let main_cst : FVec F S_ .f32 := constant S_ .f32 0x7F800000#32
  let main_v1 : FVec F S531441x128 .f32 := broadcastInDim S531441x128 ![] bcast_S_S531441x128 main_cst
  let main_v2 : IVec S531441x128 1 := cmpf .olt main_v0 main_v1
  let main_c : IVec S_ 1 := constantI S_ 1 1#1
  let main_v3 : IVec S_ 1 := (fun x v => Host.reduce IntOp.andi x v reducesTo_S531441x128_S_d0_1 h_S_) main_v2 main_c
  let main_v4 : FVec F S531441x128 .f32 := Host.absf main_arg1
  let main_cst_0 : FVec F S_ .f32 := constant S_ .f32 0x7F800000#32
  let main_v5 : FVec F S531441x128 .f32 := broadcastInDim S531441x128 ![] bcast_S_S531441x128 main_cst_0
  let main_v6 : IVec S531441x128 1 := cmpf .olt main_v4 main_v5
  let main_c_1 : IVec S_ 1 := constantI S_ 1 1#1
  let main_v7 : IVec S_ 1 := (fun x v => Host.reduce IntOp.andi x v reducesTo_S531441x128_S_d0_1 h_S_) main_v6 main_c_1
  let main_v8 : IVec S_ 1 := andi main_v3 main_v7
  let main_v9 : FVec F S531441 .f32 := Host.absf main_arg2
  let main_cst_2 : FVec F S_ .f32 := constant S_ .f32 0x7F800000#32
  let main_v10 : FVec F S531441 .f32 := broadcastInDim S531441 ![] bcast_S_S531441 main_cst_2
  let main_v11 : IVec S531441 1 := cmpf .olt main_v9 main_v10
  let main_c_3 : IVec S_ 1 := constantI S_ 1 1#1
  let main_v12 : IVec S_ 1 := (fun x v => Host.reduce IntOp.andi x v reducesTo_S531441_S_d0 h_S_) main_v11 main_c_3
  let main_v13 : IVec S_ 1 := andi main_v8 main_v12
  let main_v14 : FVec F S531441 .f32 := Host.absf main_arg3
  let main_cst_4 : FVec F S_ .f32 := constant S_ .f32 0x7F800000#32
  let main_v15 : FVec F S531441 .f32 := broadcastInDim S531441 ![] bcast_S_S531441 main_cst_4
  let main_v16 : IVec S531441 1 := cmpf .olt main_v14 main_v15
  fn_part1 (F := F) main_v13 main_v16
-- ==== Kernel.lean ====
abbrev S531441x128 : Shape := ⟨2, ![531441, 128]⟩
abbrev S531441 : Shape := ⟨1, ![531441]⟩
abbrev S_ : Shape := ⟨0, ![]⟩
abbrev S532480x128 : Shape := ⟨2, ![532480, 128]⟩
abbrev S532480 : Shape := ⟨1, ![532480]⟩
abbrev S532480x1 : Shape := ⟨2, ![532480, 1]⟩
abbrev S4096x128 : Shape := ⟨2, ![4096, 128]⟩
abbrev S4096x1 : Shape := ⟨2, ![4096, 1]⟩
abbrev S1x531441x128 : Shape := ⟨3, ![1, 531441, 128]⟩
abbrev S2x531441x128 : Shape := ⟨3, ![2, 531441, 128]⟩

abbrev nBuf : Space → Nat
  | .hbm => 25
  | .vmem => 12
  | .smem => 0
  | _ => 0

abbrev bufTy : (tb : Table) → Fin (tcTables nBuf tb) → BufTy
  | .hbm, ⟨0, _⟩ => ⟨S531441x128, .f32⟩
  | .hbm, ⟨1, _⟩ => ⟨S531441x128, .f32⟩
  | .hbm, ⟨2, _⟩ => ⟨S531441, .f32⟩
  | .hbm, ⟨3, _⟩ => ⟨S531441, .f32⟩
  | .hbm, ⟨4, _⟩ => ⟨S_, .i32⟩
  | .hbm, ⟨5, _⟩ => ⟨S_, .f32⟩
  | .hbm, ⟨6, _⟩ => ⟨S532480x128, .f32⟩
  | .hbm, ⟨7, _⟩ => ⟨S_, .i32⟩
  | .hbm, ⟨8, _⟩ => ⟨S_, .f32⟩
  | .hbm, ⟨9, _⟩ => ⟨S532480x128, .f32⟩
  | .hbm, ⟨10, _⟩ => ⟨S_, .i32⟩
  | .hbm, ⟨11, _⟩ => ⟨S_, .f32⟩
  | .hbm, ⟨12, _⟩ => ⟨S532480, .f32⟩
  | .hbm, ⟨13, _⟩ => ⟨S532480x1, .f32⟩
  | .hbm, ⟨14, _⟩ => ⟨S_, .i32⟩
  | .hbm, ⟨15, _⟩ => ⟨S_, .f32⟩
  | .hbm, ⟨16, _⟩ => ⟨S532480, .f32⟩
  | .hbm, ⟨17, _⟩ => ⟨S532480x1, .f32⟩
  | .hbm, ⟨18, _⟩ => ⟨S532480x128, .f32⟩
  | .hbm, ⟨19, _⟩ => ⟨S532480x128, .f32⟩
  | .hbm, ⟨20, _⟩ => ⟨S531441x128, .f32⟩
  | .hbm, ⟨21, _⟩ => ⟨S531441x128, .f32⟩
  | .hbm, ⟨22, _⟩ => ⟨S1x531441x128, .f32⟩
  | .hbm, ⟨23, _⟩ => ⟨S1x531441x128, .f32⟩
  | .hbm, ⟨24, _⟩ => ⟨S2x531441x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S531441x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S531441x128_S532480x128_010390_000 : S531441x128.Pads (![0, 0] : Fin 2 → Nat) ![1039, 0] ![0, 0] S532480x128
  h_S_ : 0 < S_.numel
  pads_S531441_S532480_010390 : S531441.Pads (![0] : Fin 1 → Nat) ![1039] ![0] S532480
  shapeCasts_S532480_S532480x1 : S532480.ShapeCasts S532480x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  slices_S532480x128_S531441x128_0_0 : S532480x128.Slices ![0, 0] S531441x128
  bcast_S531441x128_S1x531441x128_1_2 : S531441x128.BroadcastsInDim S1x531441x128 (![1, 2] : Fin 2 → Fin S1x531441x128.rank)
  concatenates_S1x531441x128_S1x531441x128_S2x531441x128_d0 : Shape.Concatenates [S1x531441x128, S1x531441x128] S2x531441x128 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S532480x128.size a
  hwx0_0 : ∀ i : grid0.Coords, EltTy.bits .f32 = 32 ∨ (Rect.block (s := S532480x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S532480x128.size a
  hwx0_1 : ∀ i : grid0.Coords, EltTy.bits .f32 = 32 ∨ (Rect.block (s := S532480x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S532480x1.size a
  hwx0_2 : ∀ i : grid0.Coords, EltTy.bits .f32 = 32 ∨ (Rect.block (s := S532480x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S532480x1.size a
  hwx0_3 : ∀ i : grid0.Coords, EltTy.bits .f32 = 32 ∨ (Rect.block (s := S532480x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S532480x128.size a
  hwx0_4 : ∀ i : grid0.Coords, EltTy.bits .f32 = 32 ∨ (Rect.block (s := S532480x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S532480x128.size a
  hwx0_5 : ∀ i : grid0.Coords, EltTy.bits .f32 = 32 ∨ (Rect.block (s := S532480x128) S4096x128.size (cc0_transform_5 i) (hinb0_5 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S531441x128 : Shape := ⟨2, ![531441, 128]⟩
abbrev S531441 : Shape := ⟨1, ![531441]⟩
abbrev S531441x1 : Shape := ⟨2, ![531441, 1]⟩
abbrev S1x531441x128 : Shape := ⟨3, ![1, 531441, 128]⟩
abbrev S2x531441x128 : Shape := ⟨3, ![2, 531441, 128]⟩

abbrev nBuf : Space → Nat
  | .hbm => 19
  | .vmem => 0
  | .smem => 0
  | _ => 0

abbrev bufTy : (tb : Table) → Fin (tcTables nBuf tb) → BufTy
  | .hbm, ⟨0, _⟩ => ⟨S531441x128, .f32⟩
  | .hbm, ⟨1, _⟩ => ⟨S531441x128, .f32⟩
  | .hbm, ⟨2, _⟩ => ⟨S531441, .f32⟩
  | .hbm, ⟨3, _⟩ => ⟨S531441, .f32⟩
  | .hbm, ⟨4, _⟩ => ⟨S531441x1, .f32⟩
  | .hbm, ⟨5, _⟩ => ⟨S531441x1, .f32⟩
  | .hbm, ⟨6, _⟩ => ⟨S531441x128, .f32⟩
  | .hbm, ⟨7, _⟩ => ⟨S531441x128, .f32⟩
  | .hbm, ⟨8, _⟩ => ⟨S531441x128, .f32⟩
  | .hbm, ⟨9, _⟩ => ⟨S531441x128, .f32⟩
  | .hbm, ⟨10, _⟩ => ⟨S531441x128, .f32⟩
  | .hbm, ⟨11, _⟩ => ⟨S531441x128, .f32⟩
  | .hbm, ⟨12, _⟩ => ⟨S531441x128, .f32⟩
  | .hbm, ⟨13, _⟩ => ⟨S531441x128, .f32⟩
  | .hbm, ⟨14, _⟩ => ⟨S531441x128, .f32⟩
  | .hbm, ⟨15, _⟩ => ⟨S531441x128, .f32⟩
  | .hbm, ⟨16, _⟩ => ⟨S1x531441x128, .f32⟩
  | .hbm, ⟨17, _⟩ => ⟨S1x531441x128, .f32⟩
  | .hbm, ⟨18, _⟩ => ⟨S2x531441x128, .f32⟩
  | _, _ => ⟨S531441x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S531441_S531441x1_0 : S531441.BroadcastsInDim S531441x1 (![0] : Fin 1 → Fin S531441x1.rank)
  bcast_S531441x1_S531441x128_0_1 : S531441x1.BroadcastsInDim S531441x128 (![0, 1] : Fin 2 → Fin S531441x128.rank)
  bcast_S531441x128_S1x531441x128_1_2 : S531441x128.BroadcastsInDim S1x531441x128 (![1, 2] : Fin 2 → Fin S1x531441x128.rank)
  concatenates_S1x531441x128_S1x531441x128_S2x531441x128_d0 : Shape.Concatenates [S1x531441x128, S1x531441x128] S2x531441x128 0

variable [Facts₀]

class Facts : Prop extends Facts₀ where

variable [Facts]
-- ==== Proof.GateEntries.lean ====
/-
  Multiplying a state by a diagonal phase, entry by entry.

  A state is a complex matrix with 531441 rows and 128 columns, kept as its real part `xr` and its imaginary part
  `xi`; the phase is one complex number per row, kept as `dr` and `di`. The product `(dr + i·di)·(xr + i·xi)` has, in
  row `r` and column `q`,
      real part       dr r · xr (r, q) − di r · xi (r, q),
      imaginary part  dr r · xi (r, q) + di r · xr (r, q).
  Both are written here as functions of the four arrays, over any arithmetic on the entries: nothing is rearranged, so
  no law of that arithmetic is used anywhere.

  The same two functions are also written on arrays whose row count is rounded up to 532480 = 130 · 4096 and whose
  phases are kept as columns of width one: the form in which a computation cut into 130 blocks of 4096 rows meets them.
  Where a row of the longer arrays is a row of the shorter ones, with the same entries, the two forms agree.
-/
import Idealize.ShloMosaic.PureOps
import Idealize.ShloMosaic.Lib.ValueIdx

noncomputable section

namespace Cert.Gate

open Idealize.ShloMosaic Idealize.ShloMosaic.ValueIdx

variable {F : FTy → Type} [FloatOps F]

/-- A state's real or imaginary part: 531441 rows, 128 columns. -/
abbrev State : Shape := ⟨2, ![531441, 128]⟩
/-- A phase's real or imaginary part: one number per row. -/
abbrev Phase : Shape := ⟨1, ![531441]⟩
/-- A state with its rows rounded up to 130 blocks of 4096. -/
abbrev LongState : Shape := ⟨2, ![532480, 128]⟩
/-- A phase with as many rows, kept as a column. -/
abbrev LongPhase : Shape := ⟨2, ![532480, 1]⟩

/-- The real part of the product, entry by entry. -/
def re (xr xi : FVec F State .f32) (dr di : FVec F Phase .f32) : FVec F State .f32 :=
  fun i => FloatOps.subf (FloatOps.mulf (dr (ix1 (i 0))) (xr i)) (FloatOps.mulf (di (ix1 (i 0))) (xi i))

/-- The imaginary part of the product, entry by entry. -/
def im (xr xi : FVec F State .f32) (dr di : FVec F Phase .f32) : FVec F State .f32 :=
  fun i => FloatOps.addf (FloatOps.mulf (dr (ix1 (i 0))) (xi i)) (FloatOps.mulf (di (ix1 (i 0))) (xr i))

/-- The real part on the longer arrays, the phases columns. -/
def longRe (xr xi : FVec F LongState .f32) (dr di : FVec F LongPhase .f32) : FVec F LongState .f32 :=
  fun i => FloatOps.subf (FloatOps.mulf (dr (ix2 (i 0) (0 : Fin 1))) (xr i)) (FloatOps.mulf (di (ix2 (i 0) (0 : Fin 1))) (xi i))

/-- The imaginary part on the longer arrays, the phases columns. -/
def longIm (xr xi : FVec F LongState .f32) (dr di : FVec F LongPhase .f32) : FVec F LongState .f32 :=
  fun i => FloatOps.addf (FloatOps.mulf (dr (ix2 (i 0) (0 : Fin 1))) (xi i)) (FloatOps.mulf (di (ix2 (i 0) (0 : Fin 1))) (xr i))

theorem re_apply (xr xi : FVec F State .f32) (dr di : FVec F Phase .f32) (r : Fin 531441) (q : Fin 128) :
    re xr xi dr di (ix2 r q)
      = FloatOps.subf (FloatOps.mulf (dr (ix1 r)) (xr (ix2 r q))) (FloatOps.mulf (di (ix1 r)) (xi (ix2 r q))) := rfl

theorem im_apply (xr xi : FVec F State .f32) (dr di : FVec F Phase .f32) (r : Fin 531441) (q : Fin 128) :
    im xr xi dr di (ix2 r q)
      = FloatOps.addf (FloatOps.mulf (dr (ix1 r)) (xi (ix2 r q))) (FloatOps.mulf (di (ix1 r)) (xr (ix2 r q))) := rfl

theorem longRe_apply (xr xi : FVec F LongState .f32) (dr di : FVec F LongPhase .f32) (r : Fin 532480) (q : Fin 128) :
    longRe xr xi dr di (ix2 r q)
      = FloatOps.subf (FloatOps.mulf (dr (ix2 r (0 : Fin 1))) (xr (ix2 r q))) (FloatOps.mulf (di (ix2 r (0 : Fin 1))) (xi (ix2 r q))) := rfl

theorem longIm_apply (xr xi : FVec F LongState .f32) (dr di : FVec F LongPhase .f32) (r : Fin 532480) (q : Fin 128) :
    longIm xr xi dr di (ix2 r q)
      = FloatOps.addf (FloatOps.mulf (dr (ix2 r (0 : Fin 1))) (xi (ix2 r q))) (FloatOps.mulf (di (ix2 r (0 : Fin 1))) (xr (ix2 r q))) := rfl

/-- Where row `R` of the longer arrays carries row `r` of the shorter ones, the real parts agree there. -/
theorem longRe_of_row (XR XI : FVec F LongState .f32) (DR DI : FVec F LongPhase .f32)
    (xr xi : FVec F State .f32) (dr di : FVec F Phase .f32) (R : Fin 532480) (r : Fin 531441) (q : Fin 128)
    (hxr : XR (ix2 R q) = xr (ix2 r q)) (hxi : XI (ix2 R q) = xi (ix2 r q))
    (hdr : DR (ix2 R (0 : Fin 1)) = dr (ix1 r)) (hdi : DI (ix2 R (0 : Fin 1)) = di (ix1 r)) :
    longRe XR XI DR DI (ix2 R q) = re xr xi dr di (ix2 r q) := by
  rw [longRe_apply, re_apply, hxr, hxi, hdr, hdi]

/-- Where row `R` of the longer arrays carries row `r` of the shorter ones, the imaginary parts agree there. -/
theorem longIm_of_row (XR XI : FVec F LongState .f32) (DR DI : FVec F LongPhase .f32)
    (xr xi : FVec F State .f32) (dr di : FVec F Phase .f32) (R : Fin 532480) (r : Fin 531441) (q : Fin 128)
    (hxr : XR (ix2 R q) = xr (ix2 r q)) (hxi : XI (ix2 R q) = xi (ix2 r q))
    (hdr : DR (ix2 R (0 : Fin 1)) = dr (ix1 r)) (hdi : DI (ix2 R (0 : Fin 1)) = di (ix1 r)) :
    longIm XR XI DR DI (ix2 R q) = im xr xi dr di (ix2 r q) := by
  rw [longIm_apply, im_apply, hxr, hxi, hdr, hdi]

end Cert.Gate

end
-- ==== Proof.ReferenceEntries.lean ====
/-
  The reference's two arrays before they are stacked: the real part and the imaginary part of the product of the state
  by the phase.

  The reference spreads each phase over the 128 columns of its row (first to a column of width one, then along the
  row), multiplies entry by entry and subtracts or adds. Read at row `r`, column `q`, the spread phase is the phase's
  entry `r`, so each array is the product's part as written entry by entry.
-/
import proofs.«113517_j6992206758257_1_alg».proof.Proof.Gen.ReferenceIdeal.Read
import proofs.«113517_j6992206758257_1_alg».proof.Proof.GateEntries

noncomputable section

namespace Cert.ReferenceIdeal.Parts

open Idealize.ShloMosaic Idealize.ShloMosaic.ValueIdx
open Cert.ReferenceIdeal Cert.ReferenceIdeal.Gen Cert.ReferenceIdeal.Read

variable {F : FTy → Type} [FloatOps F]

/-- Spreading along the row and then back to the phase's one axis lands on the row's number. -/
theorem row_of (r : Fin 531441) (q : Fin 128) : idx_main_v0 (idx_main_v2 (ix2 r q)) = ix1 r :=
  funext fun a => Fin.ext (by match a with | ⟨0, _⟩ => rfl)

/-- A phase spread over the state's shape reads, at row `r` and column `q`, its entry `r`. -/
theorem spread_apply (d : (⟨S531441, .f32⟩ : BufTy).Contents (Elt F)) (r : Fin 531441) (q : Fin 128) :
    val_main_v2 (F := F) d (ix2 r q) = d (ix1 r) := by
  rw [val_main_v2_apply, val_main_v0_apply, row_of]

theorem spread4_apply (d : (⟨S531441, .f32⟩ : BufTy).Contents (Elt F)) (r : Fin 531441) (q : Fin 128) :
    val_main_v4 (F := F) d (ix2 r q) = d (ix1 r) := by
  rw [val_main_v4_apply, val_main_v1_apply]; exact congrArg d (row_of r q)

theorem spread7_apply (d : (⟨S531441, .f32⟩ : BufTy).Contents (Elt F)) (r : Fin 531441) (q : Fin 128) :
    val_main_v7 (F := F) d (ix2 r q) = d (ix1 r) := by
  rw [val_main_v7_apply, val_main_v0_apply]; exact congrArg d (row_of r q)

theorem spread9_apply (d : (⟨S531441, .f32⟩ : BufTy).Contents (Elt F)) (r : Fin 531441) (q : Fin 128) :
    val_main_v9 (F := F) d (ix2 r q) = d (ix1 r) := by
  rw [val_main_v9_apply, val_main_v1_apply]; exact congrArg d (row_of r q)

/-- The reference's difference of products is the product's real part. -/
theorem real_part (x0 x1 : (⟨S531441x128, .f32⟩ : BufTy).Contents (Elt F)) (x2 x3 : (⟨S531441, .f32⟩ : BufTy).Contents (Elt F)) :
    val_main_v6 (F := F) x0 x1 x2 x3 = Cert.Gate.re x0 x1 x2 x3 := by
  funext i
  obtain ⟨r, q, rfl⟩ : ∃ (r : Fin 531441) (q : Fin 128), i = ix2 r q := ⟨i 0, i 1, eq_ix2 i⟩
  rw [val_main_v6_apply, val_main_v3_apply, val_main_v5_apply, spread_apply, spread4_apply, Cert.Gate.re_apply]

/-- The reference's sum of products is the product's imaginary part. -/
theorem imaginary_part (x0 x1 : (⟨S531441x128, .f32⟩ : BufTy).Contents (Elt F)) (x2 x3 : (⟨S531441, .f32⟩ : BufTy).Contents (Elt F)) :
    val_main_v11 (F := F) x0 x1 x2 x3 = Cert.Gate.im x0 x1 x2 x3 := by
  funext i
  obtain ⟨r, q, rfl⟩ : ∃ (r : Fin 531441) (q : Fin 128), i = ix2 r q := ⟨i 0, i 1, eq_ix2 i⟩
  rw [val_main_v11_apply, val_main_v8_apply, val_main_v10_apply, spread7_apply, spread9_apply, Cert.Gate.im_apply]

end Cert.ReferenceIdeal.Parts

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EntryArrays.lean ====
/-
  The four arrays the blocks are cut from.

  Before the computation is cut into blocks, the state's two parts are lengthened from 531441 rows to 532480 = 130 · 4096
  rows, the new rows filled with zero, and each phase part is lengthened the same way and then turned into a column of
  width one. A row below 531441 of a lengthened array is the row of the original; the filling is never looked at here.
-/
import proofs.«113517_j6992206758257_1_alg».proof.Proof.Gen.KernelIdeal.Frame
import proofs.«113517_j6992206758257_1_alg».proof.Proof.LibKeepdims
import Idealize.ShloMosaic.Lib.StableHlo.Run
import Idealize.ShloMosaic.Lib.Pipeline.Value
import Idealize.ShloMosaic.Lib.KernelVsHost

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ)

/-- The filling: the integer zero as a float. -/
abbrev fill : FVec F S_ .f32 := sitofp .f32 (constantI S_ 32 0#32)

/-- The lengthened real part of the state. -/
theorem long_real (c : Dev nD) : (V m c main_v0 : S532480x128.Idx → Elt F .f32)
    = pad S532480x128 ![0, 0] ![1039, 0] ![0, 0] (m ((c.tc : Thread nD τ).loc main_arg0)) (fill (F := F))
        pads_S531441x128_S532480x128_010390_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The lengthened imaginary part of the state. -/
theorem long_imag (c : Dev nD) : (V m c main_v1 : S532480x128.Idx → Elt F .f32)
    = pad S532480x128 ![0, 0] ![1039, 0] ![0, 0] (m ((c.tc : Thread nD τ).loc main_arg1)) (fill (F := F))
        pads_S531441x128_S532480x128_010390_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The lengthened real part of the phase, as a column. -/
theorem long_phase_real (c : Dev nD) : (V m c main_v3 : S532480x1.Idx → Elt F .f32)
    = shapeCast S532480x1 (pad S532480 ![0] ![1039] ![0] (m ((c.tc : Thread nD τ).loc main_arg2)) (fill (F := F))
        pads_S531441_S532480_010390 h_S_) shapeCasts_S532480_S532480x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The lengthened imaginary part of the phase, as a column. -/
theorem long_phase_imag (c : Dev nD) : (V m c main_v5 : S532480x1.Idx → Elt F .f32)
    = shapeCast S532480x1 (pad S532480 ![0] ![1039] ![0] (m ((c.tc : Thread nD τ).loc main_arg3)) (fill (F := F))
        pads_S531441_S532480_010390 h_S_) shapeCasts_S532480_S532480x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- A lengthened 531441 × 128 array read at a row of the original is the original there. -/
theorem pad_rows_apply {α : Type} (x : S531441x128.Idx → α) (v : S_.Idx → α) (R : Fin 532480) (r : Fin 531441)
    (hR : R.val = r.val) (q : Fin 128) :
    pad S532480x128 ![0, 0] ![1039, 0] ![0, 0] x v pads_S531441x128_S532480x128_010390_000 h_S_ (ix2 R q) = x (ix2 r q) :=
  pad_apply_of_inside _ _ _ x v pads_S531441x128_S532480x128_010390_000 h_S_ (ix2 R q) (ix2 r q) (fun a => by
    match a with
    | ⟨0, _⟩ => show R.val = 0 + r.val * (0 + 1); omega
    | ⟨1, _⟩ => show q.val = 0 + q.val * (0 + 1); omega)

/-- A lengthened vector turned into a column, read at a row of the original, is the original's entry. -/
theorem pad_column_apply {α : Type} (x : S531441.Idx → α) (v : S_.Idx → α) (R : Fin 532480) (r : Fin 531441)
    (hR : R.val = r.val) :
    shapeCast S532480x1 (pad S532480 ![0] ![1039] ![0] x v pads_S531441_S532480_010390 h_S_) shapeCasts_S532480_S532480x1
      (ix2 R (0 : Fin 1)) = x (ix1 r) :=
  (shapeCast_a_a1_apply _ shapeCasts_S532480_S532480x1 R (0 : Fin 1)).trans
    (pad_apply_of_inside _ _ _ x v pads_S531441_S532480_010390 h_S_ (ix1 R) (ix1 r) (fun a => by
      match a with
      | ⟨0, _⟩ => show R.val = 0 + r.val * (0 + 1); omega))

theorem long_real_apply (c : Dev nD) (R : Fin 532480) (r : Fin 531441) (hR : R.val = r.val) (q : Fin 128) :
    (V m c main_v0 : S532480x128.Idx → Elt F .f32) (ix2 R q) = m ((c.tc : Thread nD τ).loc main_arg0) (ix2 r q) :=
  (congrFun (long_real m c) (ix2 R q)).trans (pad_rows_apply _ _ R r hR q)

theorem long_imag_apply (c : Dev nD) (R : Fin 532480) (r : Fin 531441) (hR : R.val = r.val) (q : Fin 128) :
    (V m c main_v1 : S532480x128.Idx → Elt F .f32) (ix2 R q) = m ((c.tc : Thread nD τ).loc main_arg1) (ix2 r q) :=
  (congrFun (long_imag m c) (ix2 R q)).trans (pad_rows_apply _ _ R r hR q)

theorem long_phase_real_apply (c : Dev nD) (R : Fin 532480) (r : Fin 531441) (hR : R.val = r.val) :
    (V m c main_v3 : S532480x1.Idx → Elt F .f32) (ix2 R (0 : Fin 1)) = m ((c.tc : Thread nD τ).loc main_arg2) (ix1 r) :=
  (congrFun (long_phase_real m c) (ix2 R (0 : Fin 1))).trans (pad_column_apply _ _ R r hR)

theorem long_phase_imag_apply (c : Dev nD) (R : Fin 532480) (r : Fin 531441) (hR : R.val = r.val) :
    (V m c main_v5 : S532480x1.Idx → Elt F .f32) (ix2 R (0 : Fin 1)) = m ((c.tc : Thread nD τ).loc main_arg3) (ix1 r) :=
  (congrFun (long_phase_imag m c) (ix2 R (0 : Fin 1))).trans (pad_column_apply _ _ R r hR)

end Cert.KernelIdeal.Entry

end
-- ==== Proof.BlockEntries.lean ====
/-
  One block of the computation: 4096 rows of the state against the 4096 phases of those rows.

  The body holds the block's real and imaginary parts (4096 × 128 each) and the two phase columns (4096 × 1 each). It
  repeats each column along the 128 columns of the block, multiplies entry by entry, and stores the difference and the
  sum. Read at row `p`, column `q` of the block, a repeated column is the column's entry `p`; so the two stored
  blocks hold, at `(p, q)`,
      dr p · xr (p, q) − di p · xi (p, q)      and      dr p · xi (p, q) + di p · xr (p, q).
-/
import proofs.«113517_j6992206758257_1_alg».proof.Proof.Gen.KernelIdeal.Skeleton
import proofs.«113517_j6992206758257_1_alg».proof.Proof.LibKeepdims
import Idealize.ShloMosaic.Lib.Pipeline.Value

noncomputable section

namespace Cert.KernelIdeal.Block

open Idealize.ShloMosaic Idealize.ShloMosaic.ValueIdx
open Cert.KernelIdeal Cert.KernelIdeal.Gen

variable {F : FTy → Type} [FloatOps F]

/-- Re-reading a block at its own shape changes nothing. -/
theorem same_real (x : Vec F S4096x128 .f32) : k0_pay1 x = x := by
  unfold k0_pay1; exact shapeCast_self x _

theorem same_imag (x : Vec F S4096x128 .f32) : k0_pay2 x = x := by
  unfold k0_pay2; exact shapeCast_self x _

/-- The first phase column repeated along the block's columns reads, at `(p, q)`, the column's entry `p`. -/
theorem spread_real (d : Vec F S4096x1 .f32) (p : Fin 4096) (q : Fin 128) :
    k0_pay3 d (ix2 p q) = d (ix2 p (0 : Fin 1)) := by
  show broadcastTo S4096x128 (shapeCast S4096x1 (shapeCast S4096x1 d shapeCasts_S4096x1_S4096x1) shapeCasts_S4096x1_S4096x1)
    broadcasts_S4096x1_S4096x128 (ix2 p q) = _
  rw [shapeCast_self, shapeCast_self]
  exact broadcastTo_a1_ab_apply d broadcasts_S4096x1_S4096x128 p q

/-- The second phase column repeated along the block's columns reads, at `(p, q)`, the column's entry `p`. -/
theorem spread_imag (d : Vec F S4096x1 .f32) (p : Fin 4096) (q : Fin 128) :
    k0_pay4 d (ix2 p q) = d (ix2 p (0 : Fin 1)) := by
  show broadcastTo S4096x128 (shapeCast S4096x1 (shapeCast S4096x1 d shapeCasts_S4096x1_S4096x1) shapeCasts_S4096x1_S4096x1)
    broadcasts_S4096x1_S4096x128 (ix2 p q) = _
  rw [shapeCast_self, shapeCast_self]
  exact broadcastTo_a1_ab_apply d broadcasts_S4096x1_S4096x128 p q

/-- The block stored first is the real part of the product, entry by entry. -/
theorem real_block (x0 x1 : Vec F S4096x128 .f32) (x2 x3 : Vec F S4096x1 .f32) (p : Fin 4096) (q : Fin 128) :
    k0_pay5 x0 x1 x2 x3 (ix2 p q)
      = FloatOps.subf (FloatOps.mulf (x2 (ix2 p (0 : Fin 1))) (x0 (ix2 p q))) (FloatOps.mulf (x3 (ix2 p (0 : Fin 1))) (x1 (ix2 p q))) := by
  show FloatOps.subf (FloatOps.mulf (k0_pay3 x2 (ix2 p q)) (k0_pay1 x0 (ix2 p q)))
      (FloatOps.mulf (k0_pay4 x3 (ix2 p q)) (k0_pay2 x1 (ix2 p q))) = _
  rw [spread_real, spread_imag, same_real, same_imag]

/-- The block stored second is the imaginary part of the product, entry by entry. -/
theorem imag_block (x0 x1 : Vec F S4096x128 .f32) (x2 x3 : Vec F S4096x1 .f32) (p : Fin 4096) (q : Fin 128) :
    k0_pay6 x0 x1 x2 x3 (ix2 p q)
      = FloatOps.addf (FloatOps.mulf (x2 (ix2 p (0 : Fin 1))) (x1 (ix2 p q))) (FloatOps.mulf (x3 (ix2 p (0 : Fin 1))) (x0 (ix2 p q))) := by
  show FloatOps.addf (FloatOps.mulf (k0_pay3 x2 (ix2 p q)) (k0_pay2 x1 (ix2 p q)))
      (FloatOps.mulf (k0_pay4 x3 (ix2 p q)) (k0_pay1 x0 (ix2 p q))) = _
  rw [spread_real, spread_imag, same_real, same_imag]

/-- The same at any index of the block, its row written out. -/
theorem real_block_at (x0 x1 : Vec F S4096x128 .f32) (x2 x3 : Vec F S4096x1 .f32) (j : S4096x128.Idx) :
    k0_pay5 x0 x1 x2 x3 j
      = FloatOps.subf (FloatOps.mulf (x2 (ix2 (⟨(j 0).val, (j 0).isLt⟩ : Fin 4096) (0 : Fin 1))) (x0 j))
          (FloatOps.mulf (x3 (ix2 (⟨(j 0).val, (j 0).isLt⟩ : Fin 4096) (0 : Fin 1))) (x1 j)) := by
  obtain ⟨p, q, rfl⟩ : ∃ (p : Fin 4096) (q : Fin 128), j = ix2 p q := ⟨j 0, j 1, eq_ix2 j⟩
  exact real_block x0 x1 x2 x3 p q

theorem imag_block_at (x0 x1 : Vec F S4096x128 .f32) (x2 x3 : Vec F S4096x1 .f32) (j : S4096x128.Idx) :
    k0_pay6 x0 x1 x2 x3 j
      = FloatOps.addf (FloatOps.mulf (x2 (ix2 (⟨(j 0).val, (j 0).isLt⟩ : Fin 4096) (0 : Fin 1))) (x1 j))
          (FloatOps.mulf (x3 (ix2 (⟨(j 0).val, (j 0).isLt⟩ : Fin 4096) (0 : Fin 1))) (x0 j)) := by
  obtain ⟨p, q, rfl⟩ : ∃ (p : Fin 4096) (q : Fin 128), j = ix2 p q := ⟨j 0, j 1, eq_ix2 j⟩
  exact imag_block x0 x1 x2 x3 p q

end Cert.KernelIdeal.Block

end
-- ==== Proof.OutputArrays.lean ====
/-
  From blocks to whole arrays.

  The computation runs over 130 points; point `t` reads rows `4096 · t` to `4096 · t + 4095` of the four lengthened
  arrays (all 128 columns of the state's parts, the one column of the phases) and writes the same rows of the two
  output arrays. What it writes is the block of one function of the four arrays — the product's real part, or its
  imaginary part, entry by entry — and the 130 blocks cover all 532480 rows, so after the last point each output array
  is that function everywhere.
-/
import proofs.«113517_j6992206758257_1_alg».proof.Proof.Gen.KernelIdeal.Frame
import proofs.«113517_j6992206758257_1_alg».proof.Proof.GateEntries
import proofs.«113517_j6992206758257_1_alg».proof.Proof.BlockEntries
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]
variable (m : (ℓ : Loc nD τ sig) → Buf (Elt F) ℓ)

theorem zero_offsets : (![0, 0] : Fin 2 → Nat) = fun _ => 0 := funext fun a => by fin_cases a <;> rfl

/-- At point `t` every one of the six blocks is the `t`-th along the rows and the only one along the columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back to the real output is block `t` of the real part of the product of the lengthened
    arrays: the block's row `p` is row `4096 · t + p` of every array, in the state's parts and in the phase columns alike. -/
theorem flushed_real (c : Dev nD) (t : Fin cfg0.N) :
    (dats m 0 c).flushed 4 t = ((cfg0.win 4).blk t).view.read (Elt F)
      (Cert.Gate.longRe (V m c main_v0) (V m c main_v1) (V m c main_v3) (V m c main_v5)) := by
  show (cfg0.win 4).cut (grid0.coords t) ((dats m 0 c).after 4 t) = _
  rw [after0_4]
  unfold out0_4
  rw [View.canon_unit_zero zero_offsets]
  simp only [View.ld_unit_zero (S := S4096x128) zero_offsets, View.ld_unit_zero (S := S4096x1) zero_offsets]
  obtain ⟨e00, e01, e10, e11, e20, e21, e30, e31, e40, e41, e50, e51⟩ := block_index t
  funext j
  refine (Cert.KernelIdeal.Block.real_block_at (iblk m c 0 t) (iblk m c 1 t) (iblk m c 2 t) (iblk m c 3 t) j).trans ?_
  have hj0 : (j 0).val < 4096 := (j 0).isLt
  have hj1 : (j 1).val < 128 := (j 1).isLt
  have h0 : ((cfg0.win 0).blk t).view.emb j = ((cfg0.win 4).blk t).view.emb j := by
    funext a; apply Fin.ext
    match a with
    | ⟨0, _⟩ => show win0_0.index t (0 : Fin 2) * 4096 + 1 * (j 0).val = win0_4.index t (0 : Fin 2) * 4096 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 4096 + 1 * (j 0).val = win0_4.index t (0 : Fin 2) * 4096 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb (ix2 (⟨(j 0).val, (j 0).isLt⟩ : Fin 4096) (0 : Fin 1))
      = ix2 ((((cfg0.win 4).blk t).view.emb j) 0) (0 : Fin 1) := by
    funext a; apply Fin.ext
    match a with
    | ⟨0, _⟩ => show win0_2.index t (0 : Fin 2) * 4096 + 1 * (j 0).val = win0_4.index t (0 : Fin 2) * 4096 + 1 * (j 0).val; omega
    | ⟨1, _⟩ => show win0_2.index t (1 : Fin 2) * 1 + 1 * 0 = 0; omega
  have h3 : ((cfg0.win 3).blk t).view.emb (ix2 (⟨(j 0).val, (j 0).isLt⟩ : Fin 4096) (0 : Fin 1))
      = ix2 ((((cfg0.win 4).blk t).view.emb j) 0) (0 : Fin 1) := by
    funext a; apply Fin.ext
    match a with
    | ⟨0, _⟩ => show win0_3.index t (0 : Fin 2) * 4096 + 1 * (j 0).val = win0_4.index t (0 : Fin 2) * 4096 + 1 * (j 0).val; omega
    | ⟨1, _⟩ => show win0_3.index t (1 : Fin 2) * 1 + 1 * 0 = 0; omega
  show FloatOps.subf (FloatOps.mulf (V m c main_v3 (((cfg0.win 2).blk t).view.emb (ix2 (⟨(j 0).val, (j 0).isLt⟩ : Fin 4096) (0 : Fin 1))))
        (V m c main_v0 (((cfg0.win 0).blk t).view.emb j)))
      (FloatOps.mulf (V m c main_v5 (((cfg0.win 3).blk t).view.emb (ix2 (⟨(j 0).val, (j 0).isLt⟩ : Fin 4096) (0 : Fin 1))))
        (V m c main_v1 (((cfg0.win 1).blk t).view.emb j)))
    = FloatOps.subf (FloatOps.mulf (V m c main_v3 (ix2 ((((cfg0.win 4).blk t).view.emb j) 0) (0 : Fin 1)))
        (V m c main_v0 (((cfg0.win 4).blk t).view.emb j)))
      (FloatOps.mulf (V m c main_v5 (ix2 ((((cfg0.win 4).blk t).view.emb j) 0) (0 : Fin 1)))
        (V m c main_v1 (((cfg0.win 4).blk t).view.emb j)))
  rw [h0, h1, h2, h3]
  rfl

/-- What point `t` writes back to the imag output is block `t` of the imag part of the product of the lengthened
    arrays: the block's row `p` is row `4096 · t + p` of every array, in the state's parts and in the phase columns alike. -/
theorem flushed_imag (c : Dev nD) (t : Fin cfg0.N) :
    (dats m 0 c).flushed 5 t = ((cfg0.win 5).blk t).view.read (Elt F)
      (Cert.Gate.longIm (V m c main_v0) (V m c main_v1) (V m c main_v3) (V m c main_v5)) := by
  show (cfg0.win 5).cut (grid0.coords t) ((dats m 0 c).after 5 t) = _
  rw [after0_5]
  unfold out0_5
  rw [View.canon_unit_zero zero_offsets]
  simp only [View.ld_unit_zero (S := S4096x128) zero_offsets, View.ld_unit_zero (S := S4096x1) zero_offsets]
  obtain ⟨e00, e01, e10, e11, e20, e21, e30, e31, e40, e41, e50, e51⟩ := block_index t
  funext j
  refine (Cert.KernelIdeal.Block.imag_block_at (iblk m c 0 t) (iblk m c 1 t) (iblk m c 2 t) (iblk m c 3 t) j).trans ?_
  have hj0 : (j 0).val < 4096 := (j 0).isLt
  have hj1 : (j 1).val < 128 := (j 1).isLt
  have h0 : ((cfg0.win 0).blk t).view.emb j = ((cfg0.win 5).blk t).view.emb j := by
    funext a; apply Fin.ext
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb (ix2 (⟨(j 0).val, (j 0).isLt⟩ : Fin 4096) (0 : Fin 1))
      = ix2 ((((cfg0.win 5).blk t).view.emb j) 0) (0 : Fin 1) := by
    funext a; apply Fin.ext
    match a with
    | ⟨0, _⟩ => show win0_2.index t (0 : Fin 2) * 4096 + 1 * (j 0).val = win0_5.index t (0 : Fin 2) * 4096 + 1 * (j 0).val; omega
    | ⟨1, _⟩ => show win0_2.index t (1 : Fin 2) * 1 + 1 * 0 = 0; omega
  have h3 : ((cfg0.win 3).blk t).view.emb (ix2 (⟨(j 0).val, (j 0).isLt⟩ : Fin 4096) (0 : Fin 1))
      = ix2 ((((cfg0.win 5).blk t).view.emb j) 0) (0 : Fin 1) := by
    funext a; apply Fin.ext
    match a with
    | ⟨0, _⟩ => show win0_3.index t (0 : Fin 2) * 4096 + 1 * (j 0).val = win0_5.index t (0 : Fin 2) * 4096 + 1 * (j 0).val; omega
    | ⟨1, _⟩ => show win0_3.index t (1 : Fin 2) * 1 + 1 * 0 = 0; omega
  show FloatOps.addf (FloatOps.mulf (V m c main_v3 (((cfg0.win 2).blk t).view.emb (ix2 (⟨(j 0).val, (j 0).isLt⟩ : Fin 4096) (0 : Fin 1))))
        (V m c main_v1 (((cfg0.win 1).blk t).view.emb j)))
      (FloatOps.mulf (V m c main_v5 (((cfg0.win 3).blk t).view.emb (ix2 (⟨(j 0).val, (j 0).isLt⟩ : Fin 4096) (0 : Fin 1))))
        (V m c main_v0 (((cfg0.win 0).blk t).view.emb j)))
    = FloatOps.addf (FloatOps.mulf (V m c main_v3 (ix2 ((((cfg0.win 5).blk t).view.emb j) 0) (0 : Fin 1)))
        (V m c main_v1 (((cfg0.win 5).blk t).view.emb j)))
      (FloatOps.mulf (V m c main_v5 (ix2 ((((cfg0.win 5).blk t).view.emb j) 0) (0 : Fin 1)))
        (V m c main_v0 (((cfg0.win 5).blk t).view.emb j)))
  rw [h0, h1, h2, h3]
  rfl

/-- An index of the real output array is in point `t`'s block when each coordinate is in the block's range. -/
theorem mem_real_block (t : Fin cfg0.N) (i : S532480x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v6_0).slice (win0_4.rect t)).set ↔ _
  rw [View.set_slice_whole, Rect.mem_set_unit]
  exact Iff.rfl

/-- Every row of the real output array lies in a block: row `R` in the block of point `R / 4096`. -/
theorem cover_real (i : S532480x128.Idx) :
    ∃ t : Fin cfg0.N, (cfg0.win 4).flush t = true ∧ i ∈ ((cfg0.win 4).blk t).view.set := by
  have hi0 : (i 0).val < 532480 := (i 0).isLt
  have hi1 : (i 1).val < 128 := (i 1).isLt
  have hN : grid0.N = 130 := N_0
  have hlt : (i 0).val / 4096 < grid0.N := by rw [hN]; omega
  obtain ⟨e00, e01, e10, e11, e20, e21, e30, e31, e40, e41, e50, e51⟩ := block_index ⟨(i 0).val / 4096, hlt⟩
  refine ⟨⟨(i 0).val / 4096, hlt⟩, flush0_4 _, ?_⟩
  rw [mem_real_block]
  intro a
  match a with
  | ⟨0, _⟩ =>
    show win0_4.index ⟨(i 0).val / 4096, hlt⟩ (0 : Fin 2) * 4096 ≤ (i 0).val
      ∧ (i 0).val < win0_4.index ⟨(i 0).val / 4096, hlt⟩ (0 : Fin 2) * 4096 + 4096
    rw [e40]; show (i 0).val / 4096 * 4096 ≤ (i 0).val ∧ (i 0).val < (i 0).val / 4096 * 4096 + 4096; omega
  | ⟨1, _⟩ =>
    show win0_4.index ⟨(i 0).val / 4096, hlt⟩ (1 : Fin 2) * 128 ≤ (i 1).val
      ∧ (i 1).val < win0_4.index ⟨(i 0).val / 4096, hlt⟩ (1 : Fin 2) * 128 + 128
    rw [e41]; omega

/-- The real output array after all 130 points: the real part of the product of the lengthened arrays. -/
theorem final_real (c : Dev nD) : (dats m 0 c).arrAt 4 cfg0.N
    = Cert.Gate.longRe (V m c main_v0) (V m c main_v1) (V m c main_v3) (V m c main_v5) :=
  (dats m 0 c).arrAt_eq_of_cover 4 _ (fun t _ => flushed_real m c t) cover_real

/-- An index of the imag output array is in point `t`'s block when each coordinate is in the block's range. -/
theorem mem_imag_block (t : Fin cfg0.N) (i : S532480x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v6_1).slice (win0_5.rect t)).set ↔ _
  rw [View.set_slice_whole, Rect.mem_set_unit]
  exact Iff.rfl

/-- Every row of the imag output array lies in a block: row `R` in the block of point `R / 4096`. -/
theorem cover_imag (i : S532480x128.Idx) :
    ∃ t : Fin cfg0.N, (cfg0.win 5).flush t = true ∧ i ∈ ((cfg0.win 5).blk t).view.set := by
  have hi0 : (i 0).val < 532480 := (i 0).isLt
  have hi1 : (i 1).val < 128 := (i 1).isLt
  have hN : grid0.N = 130 := N_0
  have hlt : (i 0).val / 4096 < grid0.N := by rw [hN]; omega
  obtain ⟨e00, e01, e10, e11, e20, e21, e30, e31, e40, e41, e50, e51⟩ := block_index ⟨(i 0).val / 4096, hlt⟩
  refine ⟨⟨(i 0).val / 4096, hlt⟩, flush0_5 _, ?_⟩
  rw [mem_imag_block]
  intro a
  match a with
  | ⟨0, _⟩ =>
    show win0_5.index ⟨(i 0).val / 4096, hlt⟩ (0 : Fin 2) * 4096 ≤ (i 0).val
      ∧ (i 0).val < win0_5.index ⟨(i 0).val / 4096, hlt⟩ (0 : Fin 2) * 4096 + 4096
    rw [e50]; show (i 0).val / 4096 * 4096 ≤ (i 0).val ∧ (i 0).val < (i 0).val / 4096 * 4096 + 4096; omega
  | ⟨1, _⟩ =>
    show win0_5.index ⟨(i 0).val / 4096, hlt⟩ (1 : Fin 2) * 128 ≤ (i 1).val
      ∧ (i 1).val < win0_5.index ⟨(i 0).val / 4096, hlt⟩ (1 : Fin 2) * 128 + 128
    rw [e51]; omega

/-- The imag output array after all 130 points: the imag part of the product of the lengthened arrays. -/
theorem final_imag (c : Dev nD) : (dats m 0 c).arrAt 5 cfg0.N
    = Cert.Gate.longIm (V m c main_v0) (V m c main_v1) (V m c main_v3) (V m c main_v5) :=
  (dats m 0 c).arrAt_eq_of_cover 5 _ (fun t _ => flushed_imag m c t) cover_imag

end Cert.KernelIdeal.Arrays

end
-- ==== Proof.KernelResult.lean ====
/-
  The result of the blocked computation.

  After the 130 points the two output arrays hold the product's real and imaginary parts on the lengthened arrays.
  What is returned keeps the first 531441 rows of each and stacks the two along a new leading axis of extent two. A
  kept row `r` of an output reads row `r` of the lengthened inputs, which is row `r` of the original inputs; so the
  result is the stack of the product's real part and its imaginary part on the original arrays.
-/
import proofs.«113517_j6992206758257_1_alg».proof.Proof.Gen.KernelIdeal.Frame
import proofs.«113517_j6992206758257_1_alg».proof.Proof.GateEntries
import proofs.«113517_j6992206758257_1_alg».proof.Proof.EntryArrays
import proofs.«113517_j6992206758257_1_alg».proof.Proof.OutputArrays
import Idealize.ShloMosaic.Lib.StableHlo.Run
import Idealize.ShloMosaic.Lib.Pipeline.Value

noncomputable section

namespace Cert.KernelIdeal.Result

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-- Two 531441 × 128 arrays stacked along a new leading axis: the first at leading coordinate 0, the second at 1. -/
def stack (a b : S531441x128.Idx → Elt F .f32) : S2x531441x128.Idx → Elt F .f32 :=
  concatenate S2x531441x128 0
    [⟨S1x531441x128, broadcastInDim S1x531441x128 ![1, 2] bcast_S531441x128_S1x531441x128_1_2 a⟩,
      ⟨S1x531441x128, broadcastInDim S1x531441x128 ![1, 2] bcast_S531441x128_S1x531441x128_1_2 b⟩]
    concatenates_S1x531441x128_S1x531441x128_S2x531441x128_d0

/-- The first 531441 rows of a 532480 × 128 array. -/
abbrev firstRows (x : S532480x128.Idx → Elt F .f32) : S531441x128.Idx → Elt F .f32 :=
  extractStridedSlice S531441x128 ![0, 0] x slices_S532480x128_S531441x128_0_0

/-- The first rows of an array, at row `r` and column `q`, are the array's row `r`. -/
theorem firstRows_apply (x : S532480x128.Idx → Elt F .f32) (r : Fin 531441) (q : Fin 128) (R : Fin 532480) (hR : R.val = r.val) :
    firstRows x (ix2 r q) = x (ix2 R q) :=
  extractStridedSlice_apply _ x slices_S532480x128_S531441x128_0_0 (ix2 r q) (ix2 R q) (fun a => by
    match a with
    | ⟨0, _⟩ => show R.val = 0 + r.val; omega
    | ⟨1, _⟩ => show q.val = 0 + q.val; omega)

/-- The kept rows of the real output are the real part of the product of the original arrays. -/
theorem kept_real (c : Dev nD) :
    firstRows (Cert.Gate.longRe (V m c main_v0) (V m c main_v1) (V m c main_v3) (V m c main_v5))
      = Cert.Gate.re (m ((c.tc : Thread nD τ).loc main_arg0)) (m ((c.tc : Thread nD τ).loc main_arg1))
          (m ((c.tc : Thread nD τ).loc main_arg2)) (m ((c.tc : Thread nD τ).loc main_arg3)) := by
  funext i
  obtain ⟨r, q, rfl⟩ : ∃ (r : Fin 531441) (q : Fin 128), i = ix2 r q := ⟨i 0, i 1, eq_ix2 i⟩
  have hr : r.val < 532480 := by have := r.isLt; omega
  refine (firstRows_apply _ r q ⟨r.val, hr⟩ rfl).trans ?_
  exact Cert.Gate.longRe_of_row _ _ _ _ _ _ _ _ ⟨r.val, hr⟩ r q
    (Cert.KernelIdeal.Entry.long_real_apply m c ⟨r.val, hr⟩ r rfl q)
    (Cert.KernelIdeal.Entry.long_imag_apply m c ⟨r.val, hr⟩ r rfl q)
    (Cert.KernelIdeal.Entry.long_phase_real_apply m c ⟨r.val, hr⟩ r rfl)
    (Cert.KernelIdeal.Entry.long_phase_imag_apply m c ⟨r.val, hr⟩ r rfl)

/-- The kept rows of the imaginary output are the imaginary part of the product of the original arrays. -/
theorem kept_imag (c : Dev nD) :
    firstRows (Cert.Gate.longIm (V m c main_v0) (V m c main_v1) (V m c main_v3) (V m c main_v5))
      = Cert.Gate.im (m ((c.tc : Thread nD τ).loc main_arg0)) (m ((c.tc : Thread nD τ).loc main_arg1))
          (m ((c.tc : Thread nD τ).loc main_arg2)) (m ((c.tc : Thread nD τ).loc main_arg3)) := by
  funext i
  obtain ⟨r, q, rfl⟩ : ∃ (r : Fin 531441) (q : Fin 128), i = ix2 r q := ⟨i 0, i 1, eq_ix2 i⟩
  have hr : r.val < 532480 := by have := r.isLt; omega
  refine (firstRows_apply _ r q ⟨r.val, hr⟩ rfl).trans ?_
  exact Cert.Gate.longIm_of_row _ _ _ _ _ _ _ _ ⟨r.val, hr⟩ r q
    (Cert.KernelIdeal.Entry.long_real_apply m c ⟨r.val, hr⟩ r rfl q)
    (Cert.KernelIdeal.Entry.long_imag_apply m c ⟨r.val, hr⟩ r rfl q)
    (Cert.KernelIdeal.Entry.long_phase_real_apply m c ⟨r.val, hr⟩ r rfl)
    (Cert.KernelIdeal.Entry.long_phase_imag_apply m c ⟨r.val, hr⟩ r rfl)

/-- What is returned: the kept rows of the two output arrays, stacked. -/
theorem returned (c : Dev nD) :
    (Pipeline.afterTail₀ cfgs (dats m) 0 (V0 m) [hostOps1] c main_v11 : S2x531441x128.Idx → Elt F .f32)
      = stack (firstRows ((dats m 0 c).arrAt 4 cfg0.N)) (firstRows ((dats m 0 c).arrAt 5 cfg0.N)) := by
  have e4 : Pipeline.withArrays (cfgs 0).spec c (V0 m c) (fun w => (dats m 0 c).arrAt w (cfgs 0).N) (Proc.devRef .tc main_v6_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v6_1)
      = (dats m 0 c).arrAt 5 cfg0.N := Pipeline.withArrays_arr spec0 launch0.win.arr_inj c _ _ 5
  unfold Pipeline.afterTail₀
  show StableHlo.after hostOps1 _ (Proc.devRef .tc main_v11) = _
  after_results
  rw [e4, e5]
  rfl

/-- The result as a function of the original arrays. -/
theorem result (c : Dev nD) :
    (Pipeline.afterTail₀ cfgs (dats m) 0 (V0 m) [hostOps1] c main_v11 : S2x531441x128.Idx → Elt F .f32)
      = stack (Cert.Gate.re (m ((c.tc : Thread nD τ).loc main_arg0)) (m ((c.tc : Thread nD τ).loc main_arg1))
            (m ((c.tc : Thread nD τ).loc main_arg2)) (m ((c.tc : Thread nD τ).loc main_arg3)))
          (Cert.Gate.im (m ((c.tc : Thread nD τ).loc main_arg0)) (m ((c.tc : Thread nD τ).loc main_arg1))
            (m ((c.tc : Thread nD τ).loc main_arg2)) (m ((c.tc : Thread nD τ).loc main_arg3))) := by
  rw [returned, Cert.KernelIdeal.Arrays.final_real, Cert.KernelIdeal.Arrays.final_imag, kept_real, kept_imag]

/-- Every execution ends with the result at the stack of the product's two parts, and the four arguments as they were. -/
theorem run : θ_run defs (onTc (τ := τ) (main (F := F))) ⟨m, fun _ => 0, ρ⟩ (fun r => ∀ c : Dev nD,
      r.2.mem ((c.tc : Thread nD τ).loc main_v11)
        = stack (Cert.Gate.re (m ((c.tc : Thread nD τ).loc main_arg0)) (m ((c.tc : Thread nD τ).loc main_arg1))
              (m ((c.tc : Thread nD τ).loc main_arg2)) (m ((c.tc : Thread nD τ).loc main_arg3)))
            (Cert.Gate.im (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A diagonal phase applied to a batch of states, blocked against unblocked.

  The state is a complex matrix of 531441 rows and 128 columns, given as its real part `xr` and its imaginary part
  `xi`; the phase is one complex number per row, given as `dr` and `di`. Both programs return the product
  `(dr + i·di)·(xr + i·xi)` as a stack of two arrays, the real parts first:
      out (0, r, q) = dr r · xr (r, q) − di r · xi (r, q),      out (1, r, q) = dr r · xi (r, q) + di r · xr (r, q).

  The reference computes this on the whole arrays. The blocked program lengthens every array to 532480 = 130 · 4096
  rows (filling with zero), cuts the rows into 130 blocks of 4096, computes the same two expressions block by block,
  keeps the first 531441 rows of each output and stacks them. A kept row only ever reads its own row of the inputs, so
  the filling plays no part, and the two expressions are written with the same operations in the same order in both
  programs: the results agree entry by entry whatever the entries are, finite or not, and no law of the arithmetic is
  used.

  The pieces: Proof/GateEntries.lean writes the two expressions entry by entry, on the original and on the lengthened
  arrays; Proof/ReferenceEntries.lean reads the reference's two arrays as these; Proof/BlockEntries.lean reads one block
  of the blocked program; Proof/EntryArrays.lean reads the lengthened arrays at an original row;
  Proof/OutputArrays.lean puts the 130 blocks together; Proof/KernelResult.lean keeps the rows, stacks, and states the
  blocked program's run. That every execution of each program ends, faults nowhere and leaves its arguments alone is
  taken from the generated modules. The idealized kernel is the kernel's own text, so nothing is owed for that step.
-/
import proofs.«113517_j6992206758257_1_alg».proof.Defs
import proofs.«113517_j6992206758257_1_alg».proof.Proof.Gen.Kernel
import proofs.«113517_j6992206758257_1_alg».proof.Proof.Gen.Kernel.Frame
import proofs.«113517_j6992206758257_1_alg».proof.Proof.Gen.KernelIdeal
import proofs.«113517_j6992206758257_1_alg».proof.Proof.Gen.KernelIdeal.Frame
import proofs.«113517_j6992206758257_1_alg».proof.Proof.Gen.ReferenceIdeal
import proofs.«113517_j6992206758257_1_alg».proof.Proof.Gen.ReferenceIdeal.Run
import proofs.«113517_j6992206758257_1_alg».proof.Proof.Gen.ReferenceIdeal.Read
import proofs.«113517_j6992206758257_1_alg».proof.Proof.Gen.Pre_finite_inputs
import proofs.«113517_j6992206758257_1_alg».proof.Proof.GateEntries
import proofs.«113517_j6992206758257_1_alg».proof.Proof.ReferenceEntries
import proofs.«113517_j6992206758257_1_alg».proof.Proof.KernelResult
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel read over the extended reals is the kernel's own text: nothing was rewritten. -/
theorem preserves : Cert.preserves_Kernel_KernelIdeal := trivial

/-- The reference's result is the stack of the product's real and imaginary parts. -/
theorem reference_result (x0 x1 : (⟨Cert.ReferenceIdeal.S531441x128, .f32⟩ : BufTy).Contents (Elt Ideal))
    (x2 x3 : (⟨Cert.ReferenceIdeal.S531441, .f32⟩ : BufTy).Contents (Elt Ideal)) :
    Cert.ReferenceIdeal.Read.val_main_v14 (F := Ideal) x0 x1 x2 x3
      = Cert.KernelIdeal.Result.stack (F := Ideal) (Cert.Gate.re (F := Ideal) x0 x1 x2 x3) (Cert.Gate.im (F := Ideal) x0 x1 x2 x3) := by
  unfold Cert.ReferenceIdeal.Read.val_main_v14 Cert.ReferenceIdeal.Read.val_main_v12 Cert.ReferenceIdeal.Read.val_main_v13
  rw [Cert.ReferenceIdeal.Parts.real_part, Cert.ReferenceIdeal.Parts.imaginary_part]
  rfl

/-- From memories that agree on the four arguments, both programs end with the stack of the product's two parts. -/
theorem algebraic : Cert.algebraic_KernelIdeal_ReferenceIdeal := by
  intro m ρ m' ρ' _ hagree
  refine ⟨fun c => Cert.KernelIdeal.Result.stack (F := Ideal)
      (Cert.Gate.re (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.Gate.im (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    Cert.KernelIdeal.Result.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, reference_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
